-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192x16 : Shape := ⟨3, ![256, 8192, 16]⟩
abbrev S_ : Shape := ⟨0, ![]⟩

class Facts : Prop where
  bcast_S_S256x8192x16 : S_.BroadcastsInDim S256x8192x16 (![] : Fin 0 → Fin S256x8192x16.rank)
  reducesTo_S256x8192x16_S_d0_1_2 : S256x8192x16.ReducesTo [0, 1, 2] S_
  h_S_ : 0 < S_.numel

variable [Facts]

def fn {F : FTy → Type} [FloatOps F] (main_arg0 : FVec F S256x8192x16 .f32) (main_arg1 : FVec F S256x8192x16 .f32) : IVec S_ 1 :=
  let main_v0 : FVec F S256x8192x16 .f32 := Host.absf main_arg0
  let main_cst : FVec F S_ .f32 := constant S_ .f32 0x7F800000#32
  let main_v1 : FVec F S256x8192x16 .f32 := broadcastInDim S256x8192x16 ![] bcast_S_S256x8192x16 main_cst
  let main_v2 : IVec S256x8192x16 1 := cmpf .olt main_v0 main_v1
  let main_c : IVec S_ 1 := constantI S_ 1 1#1
  let main_v3 : IVec S_ 1 := (fun x v => Host.reduce IntOp.andi x v reducesTo_S256x8192x16_S_d0_1_2 h_S_) main_v2 main_c
  let main_v4 : FVec F S256x8192x16 .f32 := Host.absf main_arg1
  let main_cst_0 : FVec F S_ .f32 := constant S_ .f32 0x7F800000#32
  let main_v5 : FVec F S256x8192x16 .f32 := broadcastInDim S256x8192x16 ![] bcast_S_S256x8192x16 main_cst_0
  let main_v6 : IVec S256x8192x16 1 := cmpf .olt main_v4 main_v5
  let main_c_1 : IVec S_ 1 := constantI S_ 1 1#1
  let main_v7 : IVec S_ 1 := (fun x v => Host.reduce IntOp.andi x v reducesTo_S256x8192x16_S_d0_1_2 h_S_) main_v6 main_c_1
  let main_v8 : IVec S_ 1 := andi main_v3 main_v7
  main_v8
-- ==== Kernel.lean ====
abbrev S256x8192x16 : Shape := ⟨3, ![256, 8192, 16]⟩
abbrev S1x8192x16 : Shape := ⟨3, ![1, 8192, 16]⟩
abbrev S1x8190x16 : Shape := ⟨3, ![1, 8190, 16]⟩
abbrev S1x1x16 : Shape := ⟨3, ![1, 1, 16]⟩

abbrev nBuf : Space → Nat
  | .hbm => 3
  | .vmem => 6
  | .smem => 0
  | _ => 0

abbrev bufTy : (tb : Table) → Fin (tcTables nBuf tb) → BufTy
  | .hbm, ⟨0, _⟩ => ⟨S256x8192x16, .f32⟩
  | .hbm, ⟨1, _⟩ => ⟨S256x8192x16, .f32⟩
  | .hbm, ⟨2, _⟩ => ⟨S256x8192x16, .f32⟩
  | .local _ .vmem, ⟨0, _⟩ => ⟨S1x8192x16, .f32⟩
  | .local _ .vmem, ⟨1, _⟩ => ⟨S1x8192x16, .f32⟩
  | .local _ .vmem, ⟨2, _⟩ => ⟨S1x8192x16, .f32⟩
  | .local _ .vmem, ⟨3, _⟩ => ⟨S1x8192x16, .f32⟩
  | .local _ .vmem, ⟨4, _⟩ => ⟨S1x8192x16, .f32⟩
  | .local _ .vmem, ⟨5, _⟩ => ⟨S1x8192x16, .f32⟩
  | _, _ => ⟨S256x8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x8192x16_S1x8192x16_0_0_0 : ∀ a, (![0, 0, 0] : Fin 3 → Nat) a + S1x8192x16.size a ≤ S1x8192x16.size a
  h_S1x8192x16 : 0 < S1x8192x16.numel
  slices_S1x8192x16_o0_0_0_S1x8190x16 : S1x8192x16.Slices ![0, 0, 0] S1x8190x16
  slices_S1x8192x16_o0_1_0_S1x8190x16 : S1x8192x16.Slices ![0, 1, 0] S1x8190x16
  slices_S1x8192x16_o0_2_0_S1x8190x16 : S1x8192x16.Slices ![0, 2, 0] S1x8190x16
  natLt_1_32 : 1 < 32
  slices_S1x8192x16_o0_0_0_S1x1x16 : S1x8192x16.Slices ![0, 0, 0] S1x1x16
  inb_S1x8192x16_S1x1x16_0_0_0 : ∀ a, (![0, 0, 0] : Fin 3 → Nat) a + S1x1x16.size a ≤ S1x8192x16.size a
  h_S1x1x16 : 0 < S1x1x16.numel
  inb_S1x8192x16_S1x8190x16_0_1_0 : ∀ a, (![0, 1, 0] : Fin 3 → Nat) a + S1x8190x16.size a ≤ S1x8192x16.size a
  h_S1x8190x16 : 0 < S1x8190x16.numel
  slices_S1x8192x16_o0_8191_0_S1x1x16 : S1x8192x16.Slices ![0, 8191, 0] S1x1x16
  inb_S1x8192x16_S1x1x16_0_8191_0 : ∀ a, (![0, 8191, 0] : Fin 3 → Nat) a + S1x1x16.size a ≤ S1x8192x16.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x16.size a ≤ S256x8192x16.size a
  hwx0_0 : ∀ i : grid0.Coords, EltTy.bits .f32 = 32 ∨ (Rect.block (s := S256x8192x16) S1x8192x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x16.size a ≤ S256x8192x16.size a
  hwx0_1 : ∀ i : grid0.Coords, EltTy.bits .f32 = 32 ∨ (Rect.block (s := S256x8192x16) S1x8192x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x16.size a ≤ S256x8192x16.size a
  hwx0_2 : ∀ i : grid0.Coords, EltTy.bits .f32 = 32 ∨ (Rect.block (s := S256x8192x16) S1x8192x16.size (cc0_transform_2 i) (hinb0_2 i)).WholeWords (EltTy.packing .f32)

variable [Facts₀]

abbrev win0_0 : Pipeline.Window sig grid0 :=
  Pipeline.Window.ofSpec (Memref.whole main_arg0) S1x8192x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8192x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8192x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x8192x16 : Shape := ⟨3, ![256, 8192, 16]⟩
abbrev S256x8190x16 : Shape := ⟨3, ![256, 8190, 16]⟩
abbrev S_ : Shape := ⟨0, ![]⟩
abbrev S256x1x16 : Shape := ⟨3, ![256, 1, 16]⟩

abbrev nBuf : Space → Nat
  | .hbm => 36
  | .vmem => 0
  | .smem => 0
  | _ => 0

abbrev bufTy : (tb : Table) → Fin (tcTables nBuf tb) → BufTy
  | .hbm, ⟨0, _⟩ => ⟨S256x8192x16, .f32⟩
  | .hbm, ⟨1, _⟩ => ⟨S256x8192x16, .f32⟩
  | .hbm, ⟨2, _⟩ => ⟨S256x8192x16, .f32⟩
  | .hbm, ⟨3, _⟩ => ⟨S256x8190x16, .f32⟩
  | .hbm, ⟨4, _⟩ => ⟨S256x8190x16, .f32⟩
  | .hbm, ⟨5, _⟩ => ⟨S256x8190x16, .f32⟩
  | .hbm, ⟨6, _⟩ => ⟨S256x8190x16, .f32⟩
  | .hbm, ⟨7, _⟩ => ⟨S_, .f32⟩
  | .hbm, ⟨8, _⟩ => ⟨S256x8190x16, .f32⟩
  | .hbm, ⟨9, _⟩ => ⟨S256x8190x16, .f32⟩
  | .hbm, ⟨10, _⟩ => ⟨S256x8190x16, .f32⟩
  | .hbm, ⟨11, _⟩ => ⟨S256x8190x16, .f32⟩
  | .hbm, ⟨12, _⟩ => ⟨S_, .i32⟩
  | .hbm, ⟨13, _⟩ => ⟨S_, .f32⟩
  | .hbm, ⟨14, _⟩ => ⟨S256x8192x16, .f32⟩
  | .hbm, ⟨15, _⟩ => ⟨S256x1x16, .f32⟩
  | .hbm, ⟨16, _⟩ => ⟨S_, .f32⟩
  | .hbm, ⟨17, _⟩ => ⟨S256x1x16, .f32⟩
  | .hbm, ⟨18, _⟩ => ⟨S256x1x16, .f32⟩
  | .hbm, ⟨19, _⟩ => ⟨S256x8190x16, .f32⟩
  | .hbm, ⟨20, _⟩ => ⟨S_, .f32⟩
  | .hbm, ⟨21, _⟩ => ⟨S256x8190x16, .f32⟩
  | .hbm, ⟨22, _⟩ => ⟨S256x8190x16, .f32⟩
  | .hbm, ⟨23, _⟩ => ⟨S256x1x16, .f32⟩
  | .hbm, ⟨24, _⟩ => ⟨S_, .f32⟩
  | .hbm, ⟨25, _⟩ => ⟨S256x1x16, .f32⟩
  | .hbm, ⟨26, _⟩ => ⟨S256x1x16, .f32⟩
  | .hbm, ⟨27, _⟩ => ⟨S256x8192x16, .f32⟩
  | .hbm, ⟨28, _⟩ => ⟨S_, .f32⟩
  | .hbm, ⟨29, _⟩ => ⟨S256x8192x16, .f32⟩
  | .hbm, ⟨30, _⟩ => ⟨S256x8192x16, .i1⟩
  | .hbm, ⟨31, _⟩ => ⟨S256x8192x16, .f32⟩
  | .hbm, ⟨32, _⟩ => ⟨S256x8192x16, .f32⟩
  | .hbm, ⟨33, _⟩ => ⟨S256x8192x16, .f32⟩
  | .hbm, ⟨34, _⟩ => ⟨S256x8192x16, .f32⟩
  | .hbm, ⟨35, _⟩ => ⟨S256x8192x16, .f32⟩
  | _, _ => ⟨S256x8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  slices_S256x8192x16_S256x8190x16_0_0_0 : S256x8192x16.Slices ![0, 0, 0] S256x8190x16
  slices_S256x8192x16_S256x8190x16_0_1_0 : S256x8192x16.Slices ![0, 1, 0] S256x8190x16
  slices_S256x8192x16_S256x8190x16_0_2_0 : S256x8192x16.Slices ![0, 2, 0] S256x8190x16
  bcast_S_S256x8190x16 : S_.BroadcastsInDim S256x8190x16 (![] : Fin 0 → Fin S256x8190x16.rank)
  pads_S256x8190x16_S256x8192x16_000_110_000 : S256x8190x16.Pads (![0, 1, 0] : Fin 3 → Nat) ![0, 1, 0] ![0, 0, 0] S256x8192x16
  h_S_ : 0 < S_.numel
  slices_S256x8192x16_S256x1x16_0_1_0 : S256x8192x16.Slices ![0, 1, 0] S256x1x16
  bcast_S_S256x1x16 : S_.BroadcastsInDim S256x1x16 (![] : Fin 0 → Fin S256x1x16.rank)
  slices_S256x8192x16_S256x1x16_0_8190_0 : S256x8192x16.Slices ![0, 8190, 0] S256x1x16
  concatenates_S256x1x16_S256x8190x16_S256x1x16_S256x8192x16_d1 : Shape.Concatenates [S256x1x16, S256x8190x16, S256x1x16] S256x8192x16 1
  bcast_S_S256x8192x16 : S_.BroadcastsInDim S256x8192x16 (![] : Fin 0 → Fin S256x8192x16.rank)

variable [Facts₀]

class Facts : Prop extends Facts₀ where

variable [Facts]
-- ==== Proof.MidpointStep.lean ====
/-
  One smoothing step along a column, on the extended reals.

  A column y₀ … y₈₁₉₁ is sent to the column whose interior entry i (1 ≤ i ≤ 8190) is yᵢ where the second difference
  −yᵢ₋₁ + 2yᵢ − yᵢ₊₁ is not positive, and the midpoint ½(yᵢ₋₁ + yᵢ₊₁) of its two neighbours where it is: that is
  yᵢ − 1{−yᵢ₋₁ + 2yᵢ − yᵢ₊₁ > 0} · (yᵢ − ½(yᵢ₋₁ + yᵢ₊₁)). With y = x + p the step is taken on y and p is subtracted again.
  The two end entries have no second difference: there the indicator is taken of 0, which is not positive, so the
  end entries of the result are (x + p) − 0 · (…) − p = x.

  Two arrangements of the same step are compared here. One writes the second difference as 2yᵢ − (yᵢ₋₁ + yᵢ₊₁), reads
  the comparison's bit by widening it to 32 bits and reading that signed, and copies x into the two end entries. The other
  writes −yᵢ₋₁ + 2yᵢ − yᵢ₊₁, reads the bit unsigned, and computes the end entries by the formula above. On REAL entries
  the two second differences are one number (the ring laws), the two readings of a bit are one integer, and
  (x + p) − 0 − p = x; at an infinite entry none of the three need hold (⊤ − ⊤ is not 0), which is why the entries
  are taken real.
-/
import Idealize.ShloMosaic.PureOps.Ideal
import Idealize.ShloMosaic.PureOps.Ideal.Laws
import Idealize.ShloMosaic.Lib.ValueIdx

noncomputable section

namespace Cert.MidpointStep

open Idealize.ShloMosaic Idealize.ShloMosaic.ValueIdx

/-! ## The three float words both arrangements spell -/

/-- The word of ½. -/
def half : EReal := Ideal.ofBits .f32 0x3F000000#32
/-- The word of 2. -/
def two : EReal := Ideal.ofBits .f32 0x40000000#32
/-- The word of +0. -/
def nought : EReal := Ideal.ofBits .f32 0x00000000#32

theorem half_eq : half = ((1 / 2 : ℝ) : EReal) := by
  unfold half; simp [Ideal.ofBits, Ideal.ieee, -EReal.coe_mul]; norm_num

theorem two_eq : two = ((2 : ℝ) : EReal) := by
  unfold two; simp [Ideal.ofBits, Ideal.ieee, -EReal.coe_mul]; norm_num

theorem nought_eq : nought = 0 := Ideal.ofBits_zero_f32

/-! ## "Positive" as the number 1 or 0, read off the comparison's bit in two ways -/

/-- The bit of `e > 0` widened to 32 bits and read as a signed integer. -/
def posWide (e : EReal) : EReal := ((((Ideal.cmp .ogt e nought).setWidth 32).toInt : ℝ) : EReal)

/-- The bit of `e > 0` read as an unsigned integer. -/
def posBit (e : EReal) : EReal := (((Ideal.cmp .ogt e nought).toNat : ℝ) : EReal)

/-- A single bit widened with zeros is 0 or 1 whichever way it is read. -/
theorem wide_toInt (b : BitVec 1) : (b.setWidth 32).toInt = (b.toNat : Int) := by
  by_cases h : b = 1#1
  · subst h; decide
  · rw [eq_zero_of_ne_one h]; decide

theorem posWide_eq_posBit (e : EReal) : posWide e = posBit e := by
  unfold posWide posBit
  rw [wide_toInt]
  norm_cast

/-- 0 is not positive. -/
theorem posBit_zero : posBit 0 = 0 := by
  unfold posBit Ideal.cmp
  rw [nought_eq]
  simp

/-! ## One interior entry: u, c, d are the column's entries above, at and below the row; p is subtracted last -/

/-- The second difference written 2c − (u + d), the bit read wide. -/
def relaxK (u c d p : EReal) : EReal := c - posWide (two * c - (u + d)) * (c - half * (u + d)) - p

/-- The second difference written −u + 2c − d, the bit read unsigned. -/
def relaxR (u c d p : EReal) : EReal := c - posBit (-u + two * c - d) * (c - half * (u + d)) - p

/-- On real entries the two second differences are the same number, so the two arrangements agree. -/
theorem relaxR_eq_relaxK (u c d : ℝ) (p : EReal) : relaxR u c d p = relaxK u c d p := by
  unfold relaxR relaxK
  rw [posWide_eq_posBit]
  have e : (-(u : EReal) + two * (c : EReal) - (d : EReal)) = two * (c : EReal) - ((u : EReal) + (d : EReal)) := by
    rw [two_eq]
    norm_cast
    ring
  rw [e]

/-- The same with the entries given as sums x + p of entries known to be real. -/
theorem relaxR_eq_relaxK_of_real (xu pu xc pc xd pd : EReal)
    (hxu : ∃ r : ℝ, xu = (r : EReal)) (hpu : ∃ r : ℝ, pu = (r : EReal)) (hxc : ∃ r : ℝ, xc = (r : EReal))
    (hpc : ∃ r : ℝ, pc = (r : EReal)) (hxd : ∃ r : ℝ, xd = (r : EReal)) (hpd : ∃ r : ℝ, pd = (r : EReal)) :
    relaxR (xu + pu) (xc + pc) (xd + pd) pc = relaxK (xu + pu) (xc + pc) (xd + pd) pc := by
  obtain ⟨a, rfl⟩ := hxu; obtain ⟨a', rfl⟩ := hpu; obtain ⟨c, rfl⟩ := hxc
  obtain ⟨c', rfl⟩ := hpc; obtain ⟨d, rfl⟩ := hxd; obtain ⟨d', rfl⟩ := hpd
  rw [← EReal.coe_add, ← EReal.coe_add, ← EReal.coe_add]
  exact relaxR_eq_relaxK _ _ _ _

/-! ## An end entry -/

/-- An end entry by the formula: x + p, less the indicator of the value `z` standing where a second difference
    would be times the distance to the "midpoint" `half * n`, less p. -/
def endR (x p n z : EReal) : EReal := (x + p) - posBit z * ((x + p) - half * n) - p

/-- With 0 standing there and x, p real, the end entry is x. -/
theorem endR_zero (x p : ℝ) (n : EReal) : endR x p n 0 = x := by
  unfold endR
  rw [posBit_zero, zero_mul, sub_zero]
  norm_cast
  ring

/-- The same with x and p known to be real. -/
theorem endR_zero_of_real (x p n : EReal) (hx : ∃ r : ℝ, x = (r : EReal)) (hp : ∃ r : ℝ, p = (r : EReal)) :
    endR x p n 0 = x := by
  obtain ⟨a, rfl⟩ := hx; obtain ⟨a', rfl⟩ := hp
  exact endR_zero a a' n

/-! ## The step on a column, and on the arrays -/

/-- The step on one column: x's and p's entries down the column, read at row r. -/
def relaxCol (xc pc : Fin 8192 → EReal) (r : Fin 8192) : EReal :=
  if h : 1 ≤ r.val ∧ r.val ≤ 8190 then
    relaxK (xc ⟨r.val - 1, by omega⟩ + pc ⟨r.val - 1, by omega⟩) (xc r + pc r)
      (xc ⟨r.val + 1, by omega⟩ + pc ⟨r.val + 1, by omega⟩) (pc r)
  else xc r

/-- The arrays: 256 batches of 8192 rows of 16 channels; the step runs down the rows of each (batch, channel) column. -/
abbrev Arr : Shape := ⟨3, ![256, 8192, 16]⟩
/-- One batch. -/
abbrev Blk : Shape := ⟨3, ![1, 8192, 16]⟩

/-- The step on the whole arrays. -/
def step (X P : Arr.Idx → EReal) : Arr.Idx → EReal := fun j =>
  relaxCol (fun r => X (ix3 (j 0) r (j 2))) (fun r => P (ix3 (j 0) r (j 2))) (j 1)

/-- The step on one batch. -/
def stepBlk (x p : Blk.Idx → EReal) : Blk.Idx → EReal := fun y =>
  relaxCol (fun r => x (ix3 (y 0) r (y 2))) (fun r => p (ix3 (y 0) r (y 2))) (y 1)

theorem step_ix3 (X P : Arr.Idx → EReal) (b : Fin 256) (r : Fin 8192) (k : Fin 16) :
    step X P (ix3 b r k) = relaxCol (fun r' => X (ix3 b r' k)) (fun r' => P (ix3 b r' k)) r := rfl

theorem stepBlk_ix3 (x p : Blk.Idx → EReal) (z : Fin 1) (r : Fin 8192) (k : Fin 16) :
    stepBlk x p (ix3 z r k) = relaxCol (fun r' => x (ix3 z r' k)) (fun r' => p (ix3 z r' k)) r := rfl

/-- The step acts batch by batch: if x and p are batch b of X and P, the step of x and p is batch b of the step of X and P —
    at an index y of the batch and the index j of the arrays with batch coordinate b and y's row and channel. -/
theorem stepBlk_eq_step (x p : Blk.Idx → EReal) (X P : Arr.Idx → EReal) (b : Fin 256)
    (hx : ∀ (z : Fin 1) (r : Fin 8192) (k : Fin 16), x (ix3 z r k) = X (ix3 b r k))
    (hp : ∀ (z : Fin 1) (r : Fin 8192) (k : Fin 16), p (ix3 z r k) = P (ix3 b r k))
    (y : Blk.Idx) (j : Arr.Idx) (h0 : (j 0).val = b.val) (h1 : (j 1).val = (y 1).val) (h2 : (j 2).val = (y 2).val) :
    stepBlk x p y = step X P j := by
  obtain ⟨z, r, k, rfl⟩ : ∃ (z : Fin 1) (r : Fin 8192) (k : Fin 16), y = ix3 z r k := ⟨y 0, y 1, y 2, eq_ix3 y⟩
  obtain ⟨b', r', k', rfl⟩ : ∃ (b' : Fin 256) (r' : Fin 8192) (k' : Fin 16), j = ix3 b' r' k' := ⟨j 0, j 1, j 2, eq_ix3 j⟩
  obtain rfl : b' = b := Fin.ext h0
  obtain rfl : r' = r := Fin.ext h1
  obtain rfl : k' = k := Fin.ext h2
  rw [stepBlk_ix3, step_ix3]
  simp only [hx, hp]

end Cert.MidpointStep

end
-- ==== Proof.KernelBlock.lean ====
/-
  What the kernel's body leaves in its output block, at the extended reals.

  The body loads one batch of x and of p (8192 rows of 16 channels each), and fills the output block by three stores:
  row 0 with row 0 of x, rows 1 … 8190 with the smoothing step's interior entries — entry (q, k) of that piece is
  computed from rows q, q + 1, q + 2 of y = x + p and row q + 1 of p, so it is the step's entry of row q + 1 —, and row 8191
  with row 8191 of x. The three rectangles tile the block, and each store's entry is the step's entry at the place the
  store puts it: so the block the body leaves is the step of the two loaded blocks.
-/
import proofs.«181661_j18631568130503_2_alg».proof.Proof.Gen.KernelIdeal.Frame
import proofs.«181661_j18631568130503_2_alg».proof.Proof.MidpointStep
import Idealize.ShloMosaic.Lib.Pipeline.Value
import Idealize.ShloMosaic.Lib.ValueIdx

set_option maxRecDepth 16384

noncomputable section

namespace Cert.KernelIdeal.Block

open Cert.KernelIdeal Cert.KernelIdeal.Gen Idealize.ShloMosaic Idealize.ShloMosaic.TcCoe Idealize.ShloMosaic.Tactic
open Idealize.SL.Sem Idealize.ShloMosaic.ValueIdx Cert.MidpointStep

/-! ## Slices of a batch read at an index -/

/-- Rows n … n + 8189 of a batch, at (q, k): row n + q. -/
theorem rows_slice (n : Nat) (v : S1x8192x16.Idx → EReal) (h : S1x8192x16.Slices ![0, n, 0] S1x8190x16)
    (z : Fin 1) (q : Fin 8190) (k : Fin 16) (r : Fin 8192) (hr : r.val = n + q.val) :
    extractStridedSlice S1x8190x16 ![0, n, 0] v h (ix3 z q k) = v (ix3 z r k) :=
  extractStridedSlice_apply _ v h _ _ (fun a => match a with
    | ⟨0, _⟩ => by show z.val = 0 + z.val; omega
    | ⟨1, _⟩ => by show r.val = n + q.val; exact hr
    | ⟨2, _⟩ => by show k.val = 0 + k.val; omega)

/-- Row n of a batch as a one-row slice, at channel k. -/
theorem row_slice (n : Nat) (v : S1x8192x16.Idx → EReal) (h : S1x8192x16.Slices ![0, n, 0] S1x1x16)
    (z w : Fin 1) (k : Fin 16) (r : Fin 8192) (hr : r.val = n) :
    extractStridedSlice S1x1x16 ![0, n, 0] v h (ix3 z w k) = v (ix3 z r k) :=
  extractStridedSlice_apply _ v h _ _ (fun a => match a with
    | ⟨0, _⟩ => by show z.val = 0 + z.val; omega
    | ⟨1, _⟩ => by show r.val = n + w.val; have := w.isLt; omega
    | ⟨2, _⟩ => by show k.val = 0 + k.val; omega)

/-! ## Each store's entry is the step's entry where the store puts it -/

/-- The middle store: its entry (q, k) is the step's entry of row r = q + 1. -/
theorem interior_entry (x0 x1 : Vec Ideal S1x8192x16 .f32) (z : Fin 1) (q : Fin 8190) (k : Fin 16) (r : Fin 8192)
    (hr : r.val = 1 + q.val) :
    k0_pay1 (F := Ideal) x0 x1 (ix3 z q k) = stepBlk x0 x1 (ix3 z r k) := by
  have hq : q.val < 8190 := q.isLt
  rw [stepBlk_ix3]
  unfold relaxCol
  rw [dif_pos ⟨by omega, by omega⟩]
  unfold k0_pay1
  dsimp only
  simp only [subf_apply, mulf_apply, addf_apply, sitofp_apply, extui_apply, cmpf_apply, broadcast_apply,
    rows_slice 0 _ _ z q k ⟨r.val - 1, by omega⟩ (by show r.val - 1 = 0 + q.val; omega),
    rows_slice 1 _ _ z q k r hr,
    rows_slice 2 _ _ z q k ⟨r.val + 1, by omega⟩ (by show r.val + 1 = 2 + q.val; omega)]
  rfl

/-- The first store: row 0 of x, which is the step's row 0. -/
theorem first_entry (x0 x1 : Vec Ideal S1x8192x16 .f32) (z w : Fin 1) (k : Fin 16) (r : Fin 8192) (hr : r.val = 0) :
    k0_pay2 (F := Ideal) x0 (ix3 z w k) = stepBlk x0 x1 (ix3 z r k) := by
  rw [stepBlk_ix3]
  unfold relaxCol
  rw [dif_neg (by omega)]
  unfold k0_pay2
  dsimp only
  exact row_slice 0 x0 _ z w k r hr

/-- The last store: row 8191 of x, which is the step's row 8191. -/
theorem last_entry (x0 x1 : Vec Ideal S1x8192x16 .f32) (z w : Fin 1) (k : Fin 16) (r : Fin 8192) (hr : r.val = 8191) :
    k0_pay3 (F := Ideal) x0 (ix3 z w k) = stepBlk x0 x1 (ix3 z r k) := by
  rw [stepBlk_ix3]
  unfold relaxCol
  rw [dif_neg (by omega)]
  unfold k0_pay3
  dsimp only
  exact row_slice 8191 x0 _ z w k r hr

/-! ## Where each store puts its entries -/

theorem hz : (![0, 0, 0] : Fin 3 → Nat) = fun _ => 0 := funext fun a => by fin_cases a <;> rfl

/-- A store of `rows` rows starting at row `off` puts its entry (z, q, k) at row off + q of the block. -/
theorem emb_rows (off rows : Nat) (inb : ∀ a, (![0, off, 0] : Fin 3 → Nat) a + (![1, rows, 16] : Fin 3 → Nat) a ≤ S1x8192x16.size a)
    (z : Fin 1) (q : Fin rows) (k : Fin 16) (r : Fin 8192) (hr : r.val = off + q.val) :
    (Rect.unit (s := S1x8192x16) ![0, off, 0] ![1, rows, 16] inb).emb (ix3 z q k) = ix3 z r k := by
  funext a
  apply Fin.ext
  match a with
  | ⟨0, _⟩ => show 0 + 1 * z.val = z.val; omega
  | ⟨1, _⟩ => show off + 1 * q.val = r.val; omega
  | ⟨2, _⟩ => show 0 + 1 * k.val = k.val; omega

/-! ## The block the body leaves -/

/-- On any staging buffers, from loaded blocks x0 (of x) and x1 (of p), the output block ends at the step of x0 and x1. -/
theorem block_eq (c : Dev nD) (i : grid0.Coords) (a1 : Memref sig .tc .vmem S1x8192x16 .f32) (h1 : a1.IsWhole)
    (a2 : Memref sig .tc .vmem S1x8192x16 .f32) (h2 : a2.IsWhole) (a3 : Memref sig .tc .vmem S1x8192x16 .f32) (h3 : a3.IsWhole)
    (x0 x1 : Vec Ideal S1x8192x16 .f32) :
    out0_A_2 (F := Ideal) c i a1 h1 a2 h2 a3 h3 x0 x1 = stepBlk x0 x1 := by
  unfold out0_A_2
  rw [View.read_writes_junk_eq_canon]
  funext y
  refine View.canon_apply_of_pieces (stepBlk x0 x1) _ ?_ y (cover0_A_2 c i a1 h1 a2 h2 a3 h3 x0 x1 y)
  unfold kernelRun0_A
  dsimp only
  simp only [View.readAt_eq_ld, h1.read_unread, h2.read_unread, View.ld_unit_zero (S := S1x8192x16) hz]
  intro p hp x
  simp only [List.mem_cons, List.not_mem_nil, or_false] at hp
  rcases hp with rfl | rfl | rfl
  · obtain ⟨z, w, k, rfl⟩ : ∃ (z : Fin 1) (w : Fin 1) (k : Fin 16), x = ix3 z w k := ⟨x 0, x 1, x 2, eq_ix3 x⟩
    have hw : w.val < 1 := w.isLt
    rw [emb_rows 8191 1 _ z w k ⟨8191, by omega⟩ (by show 8191 = 8191 + w.val; omega)]
    exact last_entry x0 x1 z w k _ rfl
  · obtain ⟨z, q, k, rfl⟩ : ∃ (z : Fin 1) (q : Fin 8190) (k : Fin 16), x = ix3 z q k := ⟨x 0, x 1, x 2, eq_ix3 x⟩
    have hq : q.val < 8190 := q.isLt
    rw [emb_rows 1 8190 _ z q k ⟨1 + q.val, by omega⟩ rfl]
    exact interior_entry x0 x1 z q k _ rfl
  · obtain ⟨z, w, k, rfl⟩ : ∃ (z : Fin 1) (w : Fin 1) (k : Fin 16), x = ix3 z w k := ⟨x 0, x 1, x 2, eq_ix3 x⟩
    have hw : w.val < 1 := w.isLt
    rw [emb_rows 0 1 _ z w k ⟨0, by omega⟩ (by show 0 = 0 + w.val; omega)]
    exact first_entry x0 x1 z w k _ rfl

end Cert.KernelIdeal.Block

end
-- ==== Proof.KernelArray.lean ====
/-
  The kernel's whole result array, at the extended reals.

  The grid has one point per batch: point t loads batch t of x and of p and writes batch t of the result back. What it
  writes is the smoothing step of the two loaded batches, and the step acts batch by batch, so that is batch t of the
  step of the whole arrays. The 256 batches tile the result array (an index lies in the batch named by its first
  coordinate), so after the run the array is the step of the whole arrays.
-/
import proofs.«181661_j18631568130503_2_alg».proof.Proof.Gen.KernelIdeal.Value
import proofs.«181661_j18631568130503_2_alg».proof.Proof.KernelBlock

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.MidpointStep

variable (m : (ℓ : Loc nD τ sig) → Buf (Elt Ideal) ℓ) (ρ : Dev nD → PrngReg)

/-- Grid point t handles batch t: on each of the three windows its block index is (t, 0, 0). Decided over the 256 points. -/
theorem block_index : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0) :=
  (by decide +kernel : ∀ t : Fin grid0.N, _)

/-- The block of x that point t loads is batch t of x. -/
theorem xblock_at (c : Dev nD) (t : Fin cfg0.N) (b : Fin 256) (hb : b.val = t.val) (z : Fin 1) (r : Fin 8192) (k : Fin 16) :
    (iblk m c 0 t : Vec Ideal S1x8192x16 .f32) (ix3 z r k) = (V m c main_arg0 : S256x8192x16.Idx → EReal) (ix3 b r k) := by
  obtain ⟨⟨e0, e1, e2⟩, -, -⟩ := block_index t
  have hz : z.val < 1 := z.isLt
  unfold iblk
  rw [View.read_apply]
  show V m c main_arg0 _ = V m c main_arg0 _
  congr 1
  funext a
  apply Fin.ext
  match a with
  | ⟨0, _⟩ => show win0_0.index t (0 : Fin 3) * 1 + 1 * z.val = b.val; omega
  | ⟨1, _⟩ => show win0_0.index t (1 : Fin 3) * 8192 + 1 * r.val = r.val; omega
  | ⟨2, _⟩ => show win0_0.index t (2 : Fin 3) * 16 + 1 * k.val = k.val; omega

/-- The block of p that point t loads is batch t of p. -/
theorem pblock_at (c : Dev nD) (t : Fin cfg0.N) (b : Fin 256) (hb : b.val = t.val) (z : Fin 1) (r : Fin 8192) (k : Fin 16) :
    (iblk m c 1 t : Vec Ideal S1x8192x16 .f32) (ix3 z r k) = (V m c main_arg1 : S256x8192x16.Idx → EReal) (ix3 b r k) := by
  obtain ⟨-, ⟨e0, e1, e2⟩, -⟩ := block_index t
  have hz : z.val < 1 := z.isLt
  unfold iblk
  rw [View.read_apply]
  show V m c main_arg1 _ = V m c main_arg1 _
  congr 1
  funext a
  apply Fin.ext
  match a with
  | ⟨0, _⟩ => show win0_1.index t (0 : Fin 3) * 1 + 1 * z.val = b.val; omega
  | ⟨1, _⟩ => show win0_1.index t (1 : Fin 3) * 8192 + 1 * r.val = r.val; omega
  | ⟨2, _⟩ => show win0_1.index t (2 : Fin 3) * 16 + 1 * k.val = k.val; omega

/-- What point t writes back is batch t of the step of the whole arrays. -/
theorem flushed_eq (c : Dev nD) (t : Fin cfg0.N) :
    (dats m 0 c).flushed 2 t
      = ((cfg0.win 2).blk t).view.read (Elt Ideal) (step (V m c main_arg0) (V m c main_arg1)) := by
  have ht : t.val < 256 := lt_of_lt_of_eq (show t.val < grid0.N from t.isLt) N_0
  obtain ⟨-, -, ⟨e0, e1, e2⟩⟩ := block_index t
  rw [Value.flushed2_A, Block.block_eq]
  funext y
  show stepBlk (iblk m c 0 t) (iblk m c 1 t) y
    = step (V m c main_arg0) (V m c main_arg1) (((cfg0.win 2).blk t).view.emb y)
  have hy : (y 0).val < 1 := (y 0).isLt
  refine stepBlk_eq_step (iblk m c 0 t) (iblk m c 1 t) (V m c main_arg0) (V m c main_arg1) ⟨t.val, ht⟩
    (xblock_at m c t ⟨t.val, ht⟩ rfl) (pblock_at m c t ⟨t.val, ht⟩ rfl) y _ ?_ ?_ ?_
  · show win0_2.index t (0 : Fin 3) * 1 + 1 * (y 0).val = t.val; omega
  · show win0_2.index t (1 : Fin 3) * 8192 + 1 * (y 1).val = (y 1).val; omega
  · show win0_2.index t (2 : Fin 3) * 16 + 1 * (y 2).val = (y 2).val; omega

/-- The result array after the run: every index lies in the batch its first coordinate names, so the batches cover it. -/
theorem final (c : Dev nD) : (dats m 0 c).arrAt 2 cfg0.N = step (V m c main_arg0) (V m c main_arg1) :=
  (dats m 0 c).arrAt_eq_of_cover 2 (step (V m c main_arg0) (V m c main_arg1)) (fun t _ => flushed_eq m c t) fun i => by
    have hi0 : (i 0).val < 256 := (i 0).isLt
    have hi1 : (i 1).val < 8192 := (i 1).isLt
    have hi2 : (i 2).val < 16 := (i 2).isLt
    have hN : (i 0).val < cfg0.N := show (i 0).val < grid0.N from lt_of_lt_of_eq hi0 N_0.symm
    obtain ⟨-, -, ⟨e0', e1, e2⟩⟩ := block_index ⟨(i 0).val, hN⟩
    have e0 : win0_2.index ⟨(i 0).val, hN⟩ (0 : Fin 3) = (i 0).val := e0'
    refine ⟨⟨(i 0).val, hN⟩, flush0_2 _, ?_⟩
    show i ∈ ((View.whole main_v0).slice (win0_2.rect ⟨(i 0).val, hN⟩)).set
    rw [View.set_slice_whole, Rect.mem_set_unit]
    intro a
    match a with
    | ⟨0, _⟩ =>
      show win0_2.index ⟨(i 0).val, hN⟩ (0 : Fin 3) * 1 ≤ (i 0).val ∧ (i 0).val < win0_2.index ⟨(i 0).val, hN⟩ (0 : Fin 3) * 1 + 1
      rw [e0]; omega
    | ⟨1, _⟩ =>
      show win0_2.index ⟨(i 0).val, hN⟩ (1 : Fin 3) * 8192 ≤ (i 1).val ∧ (i 1).val < win0_2.index ⟨(i 0).val, hN⟩ (1 : Fin 3) * 8192 + 8192
      rw [e1]; omega
    | ⟨2, _⟩ =>
      show win0_2.index ⟨(i 0).val, hN⟩ (2 : Fin 3) * 16 ≤ (i 2).val ∧ (i 2).val < win0_2.index ⟨(i 0).val, hN⟩ (2 : Fin 3) * 16 + 16
      rw [e2]; omega

/-- The kernel's run, read: the result array ends at the step of the argument arrays, which are unchanged. -/
theorem run : θ_run defs (onTc (τ := τ) (main (F := Ideal))) ⟨m, fun _ => 0, ρ⟩ fun r => ∀ c : Dev nD,
      r.2.mem ((c : Thread nD τ).loc main_v0)
        = step (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.ReferenceRows.lean ====
/-
  The reference's result read at an index, at the extended reals.

  With y = x + p, the reference forms the second difference −y(r−1) + 2·y(r) − y(r+1) on the 8190 interior rows and pads it
  with one row of the integer 0, converted, above and below; forms the "midpoints" column ½·y(1), ½·(y(r−1) + y(r+1)),
  ½·y(8190) by joining one row, 8190 rows and one row; and returns y − 1{padded difference > 0} · (y − midpoints) − p.
  So an interior entry is the step's interior entry in the reference's arrangement, and an end entry is
  (x + p) − 1{0 > 0} · ((x + p) − ½·(the neighbouring row of y)) − p.
-/
import proofs.«181661_j18631568130503_2_alg».proof.Proof.Gen.ReferenceIdeal.Read
import proofs.«181661_j18631568130503_2_alg».proof.Proof.MidpointStep
import Idealize.ShloMosaic.Lib.Pipeline.Value
import Idealize.ShloMosaic.Lib.KernelVsHost
import Idealize.ShloMosaic.Lib.ValueIdx

noncomputable section

namespace Cert.ReferenceIdeal.Rows

open Cert.ReferenceIdeal Cert.ReferenceIdeal.Gen Cert.ReferenceIdeal.Read Idealize.ShloMosaic
open Idealize.ShloMosaic.ValueIdx Cert.MidpointStep

variable (X P : (⟨S256x8192x16, .f32⟩ : BufTy).Contents (Elt Ideal))

/-! ## Slices of the arrays read at an index -/

/-- Rows n … n + 8189 of every batch, at (b, q, k): row n + q. -/
theorem rows_slice (n : Nat) (v : S256x8192x16.Idx → EReal) (h : S256x8192x16.Slices ![0, n, 0] S256x8190x16)
    (b : Fin 256) (q : Fin 8190) (k : Fin 16) (r : Fin 8192) (hr : r.val = n + q.val) :
    extractStridedSlice S256x8190x16 ![0, n, 0] v h (ix3 b q k) = v (ix3 b r k) :=
  extractStridedSlice_apply _ v h _ _ (fun a => match a with
    | ⟨0, _⟩ => by show b.val = 0 + b.val; omega
    | ⟨1, _⟩ => by show r.val = n + q.val; exact hr
    | ⟨2, _⟩ => by show k.val = 0 + k.val; omega)

/-- Row n of every batch as a one-row slice, at (b, k). -/
theorem row_slice (n : Nat) (v : S256x8192x16.Idx → EReal) (h : S256x8192x16.Slices ![0, n, 0] S256x1x16)
    (b : Fin 256) (w : Fin 1) (k : Fin 16) (r : Fin 8192) (hr : r.val = n) :
    extractStridedSlice S256x1x16 ![0, n, 0] v h (ix3 b w k) = v (ix3 b r k) :=
  extractStridedSlice_apply _ v h _ _ (fun a => match a with
    | ⟨0, _⟩ => by show b.val = 0 + b.val; omega
    | ⟨1, _⟩ => by show r.val = n + w.val; have := w.isLt; omega
    | ⟨2, _⟩ => by show k.val = 0 + k.val; omega)

/-! ## The second difference on the interior rows, and its padding -/

/-- Entry (b, q, k) of the second difference, from rows q, q + 1, q + 2 of y. -/
theorem second_diff_at (b : Fin 256) (q : Fin 8190) (k : Fin 16) (r₀ r₁ r₂ : Fin 8192)
    (h0 : r₀.val = 0 + q.val) (h1 : r₁.val = 1 + q.val) (h2 : r₂.val = 2 + q.val) :
    val_main_v8 (F := Ideal) X P (ix3 b q k)
      = -(X (ix3 b r₀ k) + P (ix3 b r₀ k)) + two * (X (ix3 b r₁ k) + P (ix3 b r₁ k)) - (X (ix3 b r₂ k) + P (ix3 b r₂ k)) := by
  rw [val_main_v8_apply, val_main_v7_apply, val_main_v4_apply, val_main_v6_apply, val_main_v5_apply, val_main_cst_apply]
  unfold val_main_v1 val_main_v2 val_main_v3
  rw [rows_slice 0 _ _ b q k r₀ h0, rows_slice 1 _ _ b q k r₁ h1, rows_slice 2 _ _ b q k r₂ h2]
  rfl

/-- On an interior row r = q + 1 the padded array is the second difference's row q. -/
theorem padded_interior (b : Fin 256) (r : Fin 8192) (k : Fin 16) (q : Fin 8190) (hq : r.val = 1 + q.val) :
    val_main_v9 (F := Ideal) X P (ix3 b r k) = val_main_v8 (F := Ideal) X P (ix3 b q k) := by
  unfold val_main_v9
  exact pad_apply_of_inside _ _ _ _ _ _ _ (ix3 b r k) (ix3 b q k) (fun a => match a with
    | ⟨0, _⟩ => by show b.val = 0 + b.val * (0 + 1); omega
    | ⟨1, _⟩ => by show r.val = 1 + q.val * (0 + 1); omega
    | ⟨2, _⟩ => by show k.val = 0 + k.val * (0 + 1); omega)

/-- On the two end rows it is the padding value: the integer 0, converted. -/
theorem padded_end (b : Fin 256) (r : Fin 8192) (k : Fin 16) (hr : r.val = 0 ∨ r.val = 8191) :
    val_main_v9 (F := Ideal) X P (ix3 b r k) = ((((0#32 : BitVec 32).toInt : ℝ)) : EReal) := by
  unfold val_main_v9
  rw [pad_apply_of_not_inside _ _ _ _ _ _ _ (ix3 b r k) (1 : Fin 3) (by
    show ¬(1 ≤ r.val ∧ (r.val - 1) % (0 + 1) = 0 ∧ (r.val - 1) / (0 + 1) < 8190)
    omega)]
  rfl

/-! ## The column of midpoints: one row, 8190 rows and one row joined -/

/-- Row 0 of the joined column is the first piece's one row: ½ · y(1). -/
theorem mid_first (b : Fin 256) (r : Fin 8192) (k : Fin 16) (hr : r.val = 0) (r₁ : Fin 8192) (h1 : r₁.val = 1) :
    val_main_v19 (F := Ideal) X P (ix3 b r k) = half * (X (ix3 b r₁ k) + P (ix3 b r₁ k)) := by
  unfold val_main_v19
  rw [concatenate_apply_piece (1 : Fin 3) _ _ (ix3 b r k) 0 (by show (0 : Nat) < 3; omega) S256x1x16 (val_main_v12 (F := Ideal) X P) rfl rfl 0 rfl
    (ix3 b (0 : Fin 1) k) (fun a ha => match a with
      | ⟨0, _⟩ => rfl
      | ⟨1, _⟩ => absurd rfl ha
      | ⟨2, _⟩ => rfl) (by show 0 + 0 = r.val; omega)]
  rw [val_main_v12_apply, val_main_v11_apply, val_main_cst_0_apply]
  unfold val_main_v10
  rw [row_slice 1 _ _ b 0 k r₁ h1]
  rfl

/-- Row r = q + 1 of the joined column is the middle piece's row q: ½ · (y(q) + y(q + 2)). -/
theorem mid_interior (b : Fin 256) (r : Fin 8192) (k : Fin 16) (q : Fin 8190) (hq : r.val = 1 + q.val)
    (r₀ r₂ : Fin 8192) (h0 : r₀.val = 0 + q.val) (h2 : r₂.val = 2 + q.val) :
    val_main_v19 (F := Ideal) X P (ix3 b r k)
      = half * ((X (ix3 b r₀ k) + P (ix3 b r₀ k)) + (X (ix3 b r₂ k) + P (ix3 b r₂ k))) := by
  unfold val_main_v19
  rw [concatenate_apply_piece (1 : Fin 3) _ _ (ix3 b r k) 1 (by show (1 : Nat) < 3; omega) S256x8190x16 (val_main_v15 (F := Ideal) X P) rfl rfl 1 rfl
    (ix3 b q k) (fun a ha => match a with
      | ⟨0, _⟩ => rfl
      | ⟨1, _⟩ => absurd rfl ha
      | ⟨2, _⟩ => rfl) (by show 1 + q.val = r.val; omega)]
  rw [val_main_v15_apply, val_main_v14_apply, val_main_cst_1_apply, val_main_v13_apply]
  unfold val_main_v1 val_main_v3
  rw [rows_slice 0 _ _ b q k r₀ h0, rows_slice 2 _ _ b q k r₂ h2]
  rfl

/-- Row 8191 of the joined column is the last piece's one row: ½ · y(8190). -/
theorem mid_last (b : Fin 256) (r : Fin 8192) (k : Fin 16) (hr : r.val = 8191) (r₁ : Fin 8192) (h1 : r₁.val = 8190) :
    val_main_v19 (F := Ideal) X P (ix3 b r k) = half * (X (ix3 b r₁ k) + P (ix3 b r₁ k)) := by
  unfold val_main_v19
  rw [concatenate_apply_piece (1 : Fin 3) _ _ (ix3 b r k) 2 (by show (2 : Nat) < 3; omega) S256x1x16 (val_main_v18 (F := Ideal) X P) rfl rfl 8191 rfl
    (ix3 b (0 : Fin 1) k) (fun a ha => match a with
      | ⟨0, _⟩ => rfl
      | ⟨1, _⟩ => absurd rfl ha
      | ⟨2, _⟩ => rfl) (by show 8191 + 0 = r.val; omega)]
  rw [val_main_v18_apply, val_main_v17_apply, val_main_cst_2_apply]
  unfold val_main_v16
  rw [row_slice 8190 _ _ b 0 k r₁ h1]
  rfl

/-! ## The result at an index -/

/-- The result at any index, before the padded difference and the midpoint are read. -/
theorem result_at (j : S256x8192x16.Idx) :
    val_main_v26 (F := Ideal) X P j
      = (X j + P j) - posBit (val_main_v9 (F := Ideal) X P j) * ((X j + P j) - val_main_v19 (F := Ideal) X P j) - P j := by
  rw [val_main_v26_apply, val_main_v25_apply, val_main_v24_apply, val_main_v23_apply, val_main_v22_apply,
    val_main_v21_apply, val_main_v20_apply, val_main_cst_3_apply]
  rfl

/-- An interior entry is the step's, in the arrangement with the second difference written −u + 2c − d. -/
theorem result_interior (b : Fin 256) (r : Fin 8192) (k : Fin 16) (h : 1 ≤ r.val ∧ r.val ≤ 8190) :
    val_main_v26 (F := Ideal) X P (ix3 b r k)
      = relaxR (X (ix3 b ⟨r.val - 1, by omega⟩ k) + P (ix3 b ⟨r.val - 1, by omega⟩ k)) (X (ix3 b r k) + P (ix3 b r k))
          (X (ix3 b ⟨r.val + 1, by omega⟩ k) + P (ix3 b ⟨r.val + 1, by omega⟩ k)) (P (ix3 b r k)) := by
  have hq : r.val - 1 < 8190 := by omega
  rw [result_at,
    padded_interior X P b r k ⟨r.val - 1, hq⟩ (by show r.val = 1 + (r.val - 1); omega),
    second_diff_at X P b ⟨r.val - 1, hq⟩ k ⟨r.val - 1, by omega⟩ r ⟨r.val + 1, by omega⟩
      (by show r.val - 1 = 0 + (r.val - 1); omega) (by show r.val = 1 + (r.val - 1); omega)
      (by show r.val + 1 = 2 + (r.val - 1); omega),
    mid_interior X P b r k ⟨r.val - 1, hq⟩ (by show r.val = 1 + (r.val - 1); omega) ⟨r.val - 1, by omega⟩ ⟨r.val + 1, by omega⟩
      (by show r.val - 1 = 0 + (r.val - 1); omega) (by show r.val + 1 = 2 + (r.val - 1); omega)]
  rfl

/-- An end entry is (x + p) − 1{0 > 0} · ((x + p) − ½ · a neighbouring entry of y) − p. -/
theorem result_end (b : Fin 256) (r : Fin 8192) (k : Fin 16) (h : r.val = 0 ∨ r.val = 8191) :
    ∃ n : EReal, val_main_v26 (F := Ideal) X P (ix3 b r k)
      = endR (X (ix3 b r k)) (P (ix3 b r k)) n ((((0#32 : BitVec 32).toInt : ℝ)) : EReal) := by
  rcases h with h | h
  · refine ⟨X (ix3 b ⟨1, by omega⟩ k) + P (ix3 b ⟨1, by omega⟩ k), ?_⟩
    rw [result_at, padded_end X P b r k (Or.inl h), mid_first X P b r k h ⟨1, by omega⟩ rfl]
    rfl
  · refine ⟨X (ix3 b ⟨8190, by omega⟩ k) + P (ix3 b ⟨8190, by omega⟩ k), ?_⟩
    rw [result_at, padded_end X P b r k (Or.inr h), mid_last X P b r k h ⟨8190, by omega⟩ rfl]
    rfl

end Cert.ReferenceIdeal.Rows

end
-- ==== Proof.ReferenceStep.lean ====
/-
  The reference's result is the smoothing step of the argument arrays, when their entries are real.

  Row by row: on an interior row the reference's entry is the step's with the second difference written −u + 2c − d,
  which on real entries is the arrangement 2c − (u + d); on the two end rows it is (x + p) − 1{0 > 0} · (…) − p, which on
  real x and p is x, the step's end entry.
-/
import proofs.«181661_j18631568130503_2_alg».proof.Proof.ReferenceRows

noncomputable section

namespace Cert.ReferenceIdeal.Rows

open Cert.ReferenceIdeal Cert.ReferenceIdeal.Gen Cert.ReferenceIdeal.Read Idealize.ShloMosaic
open Idealize.ShloMosaic.ValueIdx Cert.MidpointStep

/-- The converted integer 0 is the extended real 0. -/
theorem zero_word : ((((0#32 : BitVec 32).toInt : ℝ)) : EReal) = 0 := by simp

theorem result_eq_step (X P : (⟨S256x8192x16, .f32⟩ : BufTy).Contents (Elt Ideal))
    (hX : ∀ j, ∃ r : ℝ, X j = (r : EReal)) (hP : ∀ j, ∃ r : ℝ, P j = (r : EReal)) :
    val_main_v26 (F := Ideal) X P = step X P := by
  funext j
  obtain ⟨b, r, k, rfl⟩ : ∃ (b : Fin 256) (r : Fin 8192) (k : Fin 16), j = ix3 b r k := ⟨j 0, j 1, j 2, eq_ix3 j⟩
  rw [step_ix3]
  unfold relaxCol
  by_cases h : 1 ≤ r.val ∧ r.val ≤ 8190
  · rw [dif_pos h, result_interior X P b r k h]
    exact relaxR_eq_relaxK_of_real _ _ _ _ _ _ (hX _) (hP _) (hX _) (hP _) (hX _) (hP _)
  · rw [dif_neg h]
    obtain ⟨n, hn⟩ := result_end X P b r k (by omega)
    rw [hn, zero_word]
    exact endR_zero_of_real _ _ n (hX _) (hP _)

end Cert.ReferenceIdeal.Rows

end
-- ==== Proof.RealEntries.lean ====
/-
  From the precondition to real entries.

  The precondition is the conjunction of two "all" tests, one per argument array: every entry's absolute value is below
  the float word of +∞. On the extended reals that word is ⊤ and the absolute value of a is max a (−a), which is ⊤ at
  both infinities; so an entry that passes the test is neither infinity: it is a real number.
-/
import proofs.«181661_j18631568130503_2_alg».proof.Pre_finite_inputs
import proofs.«181661_j18631568130503_2_alg».proof.Proof.Gen.Pre_finite_inputs
import Idealize.ShloMosaic.PureOps.Ideal
import Idealize.ShloMosaic.Lib.ReduceAll
import Idealize.ShloMosaic.Lib.Affine
import Idealize.ShloMosaic.Lib.ValueIdx

noncomputable section

namespace Cert.RealEntries

open Cert.Pre_finite_inputs Cert.Pre_finite_inputs.Gen Idealize.ShloMosaic Idealize.ShloMosaic.ValueIdx

instance : Subsingleton S_.Idx := ⟨fun a b => funext fun d => d.elim0⟩

/-- The word of +∞ is ⊤. -/
theorem inf_word : Ideal.ofBits .f32 0x7F800000#32 = ⊤ := by
  simp [Ideal.ofBits, Ideal.ieee]

/-- An extended real whose absolute value is below ⊤ is a real number. -/
theorem real_of_abs_lt_top (a : EReal) (h : max a (-a) < ⊤) : ∃ r : ℝ, a = (r : EReal) := by
  induction a using EReal.rec with
  | bot => simp at h
  | coe r => exact ⟨r, rfl⟩
  | top => simp at h

/-- One entry's test, read: the comparison's bit is 1 only if |a| < ⊤. -/
theorem real_of_test (a : EReal)
    (h : FloatOps.cmpf (F := Ideal) .olt (FloatOps.hostAbsf a) (FloatOps.ofBits .f32 0x7F800000#32) = 1#1) :
    ∃ r : ℝ, a = (r : EReal) := by
  apply real_of_abs_lt_top
  have h' : Ideal.cmp .olt (max a (-a)) (Ideal.ofBits .f32 0x7F800000#32) = 1#1 := h
  rw [inf_word] at h'
  unfold Ideal.cmp at h'
  by_contra hn
  simp [hn] at h'

/-- Under the precondition every entry of both argument arrays is a real number. -/
theorem real_entries (X P : FVec Ideal S256x8192x16 .f32)
    (h : Cert.Pre_finite_inputs.fn (F := Ideal) X P = (fun _ => 1#1)) :
    (∀ j, ∃ r : ℝ, X j = (r : EReal)) ∧ (∀ j, ∃ r : ℝ, P j = (r : EReal)) := by
  have h0 := congrFun h ix0
  dsimp only [Cert.Pre_finite_inputs.fn] at h0
  obtain ⟨hX, hP⟩ := IntOp.andi_eq_one.mp h0
  refine ⟨fun j => ?_, fun j => ?_⟩
  · exact real_of_test (X j) (Host.reduce_andi_all _ _ _ _ _ hX j)
  · exact real_of_test (P j) (Host.reduce_andi_all _ _ _ _ _ hP j)

end Cert.RealEntries

end
-- ==== Proof.lean ====
/-
  The kernel and its reference compute one smoothing step of y = x + p down each column of 8192 rows, and subtract p.

  Interior row r of the result is y(r) − 1{−y(r−1) + 2y(r) − y(r+1) > 0} · (y(r) − ½(y(r−1) + y(r+1))) − p(r); the two end
  rows of the result are x's. The kernel takes one batch per grid point, writes the second difference as
  2y(r) − (y(r−1) + y(r+1)), and copies x into the end rows; the reference pads the second difference with zero rows and
  computes every row by the one formula, so that at an end row it forms (x + p) − 0 · (…) − p. On real entries these are
  the same numbers: the two second differences by the ring laws, the end rows because (x + p) − 0 − p = x. At an infinite
  entry they need not be (⊤ − ⊤ is not 0), so the precondition — every entry finite — is used: it makes every entry real.

  The parts: MidpointStep (the step on the extended reals and the two laws), KernelBlock (the block one grid point
  leaves is the step of the two loaded batches), KernelArray (the 256 batches tile the result array), ReferenceRows (the
  reference's result read row by row, the padding and the joining of the midpoint column read at an index),
  ReferenceStep (on real entries that is the step), RealEntries (the precondition makes the entries real).
  The idealized kernel is the kernel's own text read at the extended reals, so there is nothing to preserve.
-/
import proofs.«181661_j18631568130503_2_alg».proof.Defs
import proofs.«181661_j18631568130503_2_alg».proof.Proof.Gen.Kernel
import proofs.«181661_j18631568130503_2_alg».proof.Proof.Gen.Kernel.Skeleton
import proofs.«181661_j18631568130503_2_alg».proof.Proof.Gen.Kernel.Launch
import proofs.«181661_j18631568130503_2_alg».proof.Proof.Gen.Kernel.Points
import proofs.«181661_j18631568130503_2_alg».proof.Proof.Gen.Kernel.Frame
import proofs.«181661_j18631568130503_2_alg».proof.Proof.Gen.KernelIdeal
import proofs.«181661_j18631568130503_2_alg».proof.Proof.Gen.KernelIdeal.Skeleton
import proofs.«181661_j18631568130503_2_alg».proof.Proof.Gen.KernelIdeal.Launch
import proofs.«181661_j18631568130503_2_alg».proof.Proof.Gen.KernelIdeal.Points
import proofs.«181661_j18631568130503_2_alg».proof.Proof.Gen.KernelIdeal.Frame
import proofs.«181661_j18631568130503_2_alg».proof.Proof.Gen.ReferenceIdeal
import proofs.«181661_j18631568130503_2_alg».proof.Proof.Gen.Pre_finite_inputs
import proofs.«181661_j18631568130503_2_alg».proof.Proof.Gen.KernelIdeal.Value
import proofs.«181661_j18631568130503_2_alg».proof.Proof.Gen.ReferenceIdeal.Run
import proofs.«181661_j18631568130503_2_alg».proof.Proof.Gen.ReferenceIdeal.Read
import proofs.«181661_j18631568130503_2_alg».proof.Proof.KernelArray
import proofs.«181661_j18631568130503_2_alg».proof.Proof.ReferenceStep
import proofs.«181661_j18631568130503_2_alg».proof.Proof.RealEntries
import Idealize.ShloMosaic.Adequacy
import Idealize.ShloMosaic.Init

noncomputable section

namespace Cert.Proof

open Idealize.ShloMosaic Idealize.ShloMosaic.TcCoe Idealize.SL.Sem Cert.MidpointStep

/-- The kernel as printed runs and leaves x and p as they were. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- The reference runs and leaves x and p as they were: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- Both programs end with the step of x and p: the kernel's result array batch by batch, the reference's row by row
    on the real entries the precondition gives. -/
theorem algebraic : Cert.algebraic_KernelIdeal_ReferenceIdeal := by
  intro m ρ m' ρ' hpre hagree
  refine ⟨fun c => step (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hP⟩ := Cert.RealEntries.real_entries _ _ (hpre c)
  rw [(hagree c).1, (hagree c).2, Cert.ReferenceIdeal.Read.val_main_v26_eq]
  exact Cert.ReferenceIdeal.Rows.result_eq_step _ _ hX hP

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
